-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S100000 : Shape := ⟨1, ![100000]⟩
abbrev S16x64 : Shape := ⟨2, ![16, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S64 .f32) (main_arg7 : FVec F S64x4 .f32) (main_arg8 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4 .f32 := Host.absf main_arg7
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg8
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x16 .f32) (main_arg1 : IVec S2x3200000 32) (main_arg2 : IVec S100000 32) (main_arg3 : FVec F S16x64 .f32) (main_arg4 : FVec F S64 .f32) (main_arg5 : FVec F S64x64 .f32) (main_arg6 : FVec F S64 .f32) (main_arg7 : FVec F S64x4 .f32) (main_arg8 : FVec F S4 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x64 .f32 := Host.absf main_arg3
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x16 : Shape := ⟨2, ![100000, 16]⟩
abbrev S2x3200000 : Shape := ⟨2, ![2, 3200000]⟩
abbrev S100000 : Shape := ⟨1, ![100000]⟩
abbrev S16x64 : Shape := ⟨2, ![16, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x16 : Shape := ⟨2, ![10000, 16]⟩
abbrev S10000x64 : Shape := ⟨2, ![10000, 64]⟩
abbrev S3300000x64 : Shape := ⟨2, ![3300000, 64]⟩
abbrev S1x64 : Shape := ⟨2, ![1, 64]⟩
abbrev S128x64 : Shape := ⟨2, ![128, 64]⟩
abbrev S100000x1 : Shape := ⟨2, ![100000, 1]⟩
abbrev S1x4 : Shape := ⟨2, ![1, 4]⟩
abbrev S128x4 : Shape := ⟨2, ![128, 4]⟩

abbrev nBuf : Space → Nat
  | .hbm => 93
  | .vmem => 24
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S100000, .i32⟩
  | .hbm, ⟨3, _⟩ => ⟨S16x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x4, .f32⟩
  | .hbm, ⟨8, _⟩ => ⟨S4, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .f32⟩
  | .hbm, ⟨88, _⟩ => ⟨S128x64, .f32⟩
  | .hbm, ⟨89, _⟩ => ⟨S100000x1, .i32⟩
  | .hbm, ⟨90, _⟩ => ⟨S128x64, .f32⟩
  | .hbm, ⟨91, _⟩ => ⟨S1x4, .f32⟩
  | .hbm, ⟨92, _⟩ => ⟨S128x4, .f32⟩
  | .local _ .vmem, ⟨0, _⟩ => ⟨S10000x16, .f32⟩
  | .local _ .vmem, ⟨1, _⟩ => ⟨S10000x16, .f32⟩
  | .local _ .vmem, ⟨2, _⟩ => ⟨S16x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S128x64, .f32⟩
  | .local _ .vmem, ⟨21, _⟩ => ⟨S64x4, .f32⟩
  | .local _ .vmem, ⟨22, _⟩ => ⟨S1x4, .f32⟩
  | .local _ .vmem, ⟨23, _⟩ => ⟨S128x4, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S128x64 : S_.BroadcastsInDim S128x64 (![] : Fin 0 → Fin S128x64.rank)
  bcast_S100000_S100000x1_0 : S100000.BroadcastsInDim S100000x1 (![0] : Fin 1 → Fin S100000x1.rank)
  shapeCasts_S4_S1x4 : S4.ShapeCasts S1x4
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S128x4 : S1x4.Broadcasts S128x4
  inb_S128x4_S128x4_0_0 : ∀ a, (![0, 0] : Fin 2 → Nat) a + S128x4.size a ≤ S128x4.size a
  h_S128x4 : 0 < S128x4.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x16_S16x64_S10000x64_1_0_0_1_n_n_wf : DotDims.WF S10000x16 S16x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  scatter_S128x64_S100000x1_S100000x64_1_0_0_1_wf : ScatterDims.WF S128x64 S100000x1 S100000x64 [1] [0] [0] 1
  dot_S128x64_S64x4_S128x4_1_0_0_1_n_n_wf : DotDims.WF S128x64 S64x4 S128x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x64.size a ≤ S128x64.size a
  hwx4_0 : ∀ i : grid4.Coords, EltTy.bits .f32 = 32 ∨ (Rect.block (s := S128x64) S128x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x4.size a ≤ S64x4.size a
  hwx4_1 : ∀ i : grid4.Coords, EltTy.bits .f32 = 32 ∨ (Rect.block (s := S64x4) S64x4.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x4.size a ≤ S1x4.size a
  hwx4_2 : ∀ i : grid4.Coords, EltTy.bits .f32 = 32 ∨ (Rect.block (s := S1x4) S1x4.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x4.size a ≤ S128x4.size a
  hwx4_3 : ∀ i : grid4.Coords, EltTy.bits .f32 = 32 ∨ (Rect.block (s := S128x4) S128x4.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x4_S128x4_1_0_0_1_n_n : DotDims S128x64 S64x4 S128x4 where
  lhsContracting := [1]
  rhsContracting := [0]
  lhsNonContracting := [0]
  rhsNonContracting := [1]
  lhsBatch := []
  rhsBatch := []
  wf := dot_S128x64_S64x4_S128x4_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S128x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S128x4.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S100000 : Shape := ⟨1, ![100000]⟩
abbrev S16x64 : Shape := ⟨2, ![16, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S1x3200000 : Shape := ⟨2, ![1, 3200000]⟩
abbrev S3200000 : Shape := ⟨1, ![3200000]⟩
abbrev S3300000 : Shape := ⟨1, ![3300000]⟩
abbrev S100000x64 : Shape := ⟨2, ![100000, 64]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S128x64 : Shape := ⟨2, ![128, 64]⟩
abbrev S100000x1 : Shape := ⟨2, ![100000, 1]⟩
abbrev S128x4 : Shape := ⟨2, ![128, 4]⟩
abbrev S1x4 : Shape := ⟨2, ![1, 4]⟩

abbrev nBuf : Space → Nat
  | .hbm => 136
  | .vmem => 0
  | .smem => 0
  | _ => 0

abbrev hbmTy0_0 (i : Nat) : BufTy := match i % 128 with
  | 0 => ⟨S100000x16, .f32⟩
  | 1 => ⟨S2x3200000, .i32⟩
  | 2 => ⟨S100000, .i32⟩
  | 3 => ⟨S16x64, .f32⟩
  | 4 => ⟨S64, .f32⟩
  | 5 => ⟨S64x64, .f32⟩
  | 6 => ⟨S64, .f32⟩
  | 7 => ⟨S64x4, .f32⟩
  | 8 => ⟨S4, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S100000x64, .f32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x64, .f32⟩
  | 115 => ⟨S3300000x1, .f32⟩
  | 116 => ⟨S3300000x64, .f32⟩
  | 117 => ⟨S3300000x64, .f32⟩
  | 118 => ⟨S_, .f32⟩
  | 119 => ⟨S100000x64, .f32⟩
  | 120 => ⟨S3300000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x16, .f32⟩

abbrev hbmTy0_1 (i : Nat) : BufTy := match i % 128 with
  | 0 => ⟨S_, .f32⟩
  | 1 => ⟨S128x64, .f32⟩
  | 2 => ⟨S100000x1, .i32⟩
  | 3 => ⟨S128x64, .f32⟩
  | 4 => ⟨S128x4, .f32⟩
  | 5 => ⟨S1x4, .f32⟩
  | 6 => ⟨S128x4, .f32⟩
  | 7 => ⟨S128x4, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S4_S1x4_1 : S4.BroadcastsInDim S1x4 (![1] : Fin 1 → Fin S1x4.rank)
  bcast_S1x4_S128x4_0_1 : S1x4.BroadcastsInDim S128x4 (![0, 1] : Fin 2 → Fin S128x4.rank)
  dot_S100000x16_S16x64_S100000x64_1_0_0_1_n_n_wf : DotDims.WF S100000x16 S16x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x4_S128x4_1_0_0_1_n_n_wf : DotDims.WF S128x64 S64x4 S128x4 [1] [0] [0] [1] [] []

variable [Facts₀]

def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x4_S128x4_1_0_0_1_n_n : DotDims S128x64 S64x4 S128x4 where
  lhsContracting := [1]
  rhsContracting := [0]
  lhsNonContracting := [0]
  rhsNonContracting := [1]
  lhsBatch := []
  rhsBatch := []
  wf := dot_S128x64_S64x4_S128x4_1_0_0_1_n_n_wf

class Facts : Prop extends Facts₀ where

variable [Facts]
-- ==== Proof.KRun.lean ====
/-
  The idealized kernel's run with its RESULT named.

  The program is five kernel launches among stretches of host operations. Every weakly fair execution from any launch
  memory ends, and the state it ends in has every unscoped buffer at the contents the fold through the program leaves
  (`W11`): in particular the result buffer, which the last launch writes, and the nine argument arrays, which nothing
  writes. This is the launch theorem for a chain of segments, read at the result buffer as well as at the arguments.
-/
import proofs.«124380_j32280974197287_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at what the fold through the
    program leaves in it, and the argument arrays end as launched. -/
theorem run : θ_run defs (onTc (τ := τ) (main (F := F))) ⟨m, fun _ => 0, ρ⟩ (fun r => ∀ c : Dev nD,
      r.2.mem ((c.tc : Thread nD τ).loc main_v66) = W11 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v66 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Net

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«124380_j32280974197287_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.Payloads.lean ====
/-
  What each kernel body computes, entry by entry, at the ideal instance.

  The two projection bodies multiply a block of 10000 node rows by a whole weight matrix: the entry at row `p` and
  column `q` is the sum over `k` of `x (p, k) · w (k, q)` (rounding the operands to a narrower format first changes
  nothing at the ideal instance). The two bias bodies add a one-row bias to every row of the block and take the
  positive part. The last body multiplies the pooled rows by the last matrix and adds its one-row bias.
-/
import proofs.«124380_j32280974197287_1_alg».proof.Proof.Gen.KernelIdeal.Skeleton
import proofs.«124380_j32280974197287_1_alg».proof.Proof.LibAffineBlock

noncomputable section

open scoped BigOperators

namespace Cert.KernelIdeal.Net

open Cert.KernelIdeal Cert.KernelIdeal.Gen Idealize.ShloMosaic Idealize.ShloMosaic.ValueIdx

/-- The first projection's body at an entry: a row of the block against a column of the matrix. -/
theorem pay0_apply (x0 : Vec Ideal S10000x16 .f32) (x1 : Vec Ideal S16x64 .f32) (p : Fin 10000) (q : Fin 64) :
    k0_pay1 (F := Ideal) x0 x1 (ix2 p q) = ∑ k : Fin 16, x0 (ix2 p k) * x1 (ix2 k q) := by
  unfold k0_pay1
  exact Cert.LibMatmulNN.matmul_zero_apply' dot_S10000x16_S16x64_S10000x64_1_0_0_1_n_n rfl rfl rfl rfl rfl rfl none _ _ p q

/-- The second projection's body at an entry. -/
theorem pay2_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  simp only [shapeCast_self]
  exact Cert.LibMatmulNN.matmul_zero_apply' dot_S10000x64_S64x64_S10000x64_1_0_0_1_n_n rfl rfl rfl rfl rfl rfl none _ _ p q

/-- The first bias body at an entry: the block's entry plus the bias row's, then the positive part. -/
theorem pay1_apply (x0 : Vec Ideal S10000x64 .f32) (x1 : Vec Ideal S1x64 .f32) (p : Fin 10000) (q : Fin 64) :
    k1_pay1 (F := Ideal) x0 x1 (ix2 p q) = max (x0 (ix2 p q) + x1 (ix2 (0 : Fin 1) q)) 0 := by
  unfold k1_pay1
  simp only [shapeCast_self]
  show max (x0 (ix2 p q) + broadcastTo S10000x64 x1 broadcasts_S1x64_S10000x64 (ix2 p q)) (Ideal.ofBits .f32 0x00000000#32) = _
  rw [Ideal.ofBits_zero_f32, broadcastTo_1b_ab_apply x1 broadcasts_S1x64_S10000x64 p q]

/-- The second bias body at an entry. -/
theorem pay3_apply (x0 : Vec Ideal S10000x64 .f32) (x1 : Vec Ideal S1x64 .f32) (p : Fin 10000) (q : Fin 64) :
    k3_pay1 (F := Ideal) x0 x1 (ix2 p q) = max (x0 (ix2 p q) + x1 (ix2 (0 : Fin 1) q)) 0 := by
  unfold k3_pay1
  simp only [shapeCast_self]
  show max (x0 (ix2 p q) + broadcastTo S10000x64 x1 broadcasts_S1x64_S10000x64 (ix2 p q)) (Ideal.ofBits .f32 0x00000000#32) = _
  rw [Ideal.ofBits_zero_f32, broadcastTo_1b_ab_apply x1 broadcasts_S1x64_S10000x64 p q]

/-- The last body at an entry: a pooled row against a column of the last matrix, plus the bias row's entry. -/
theorem pay4_apply (x0 : Vec Ideal S128x64 .f32) (x1 : Vec Ideal S64x4 .f32) (x2 : Vec Ideal S1x4 .f32) (p : Fin 128) (q : Fin 4) :
    k4_pay1 (F := Ideal) x0 x1 x2 (ix2 p q) = (∑ k : Fin 64, x0 (ix2 p k) * x1 (ix2 k q)) + x2 (ix2 (0 : Fin 1) q) := by
  unfold k4_pay1
  simp only [shapeCast_self]
  exact Cert.LibAffineBlock.affine_apply dot_S128x64_S64x4_S128x4_1_0_0_1_n_n rfl rfl rfl rfl rfl rfl none _ _ x2 broadcasts_S1x4_S128x4 p q

end Cert.KernelIdeal.Net

end
-- ==== Proof.Spec.lean ====
/-
  The two-layer graph convolution as ONE function of the argument arrays.

  Nodes carry feature rows; the edge list (two rows of node numbers) is extended by one self-loop per node, giving the
  source and destination lists `srcI` and `dstI` of length E + N. The degree of a node is the number of list entries
  that name it as destination (a scatter-add of ones); `dinv` is its inverse square root where the degree is positive
  and zero elsewhere; the weight of entry `e` is `dinv (src e) · dinv (dst e)`. One layer projects the node rows by a
  matrix, gathers the projected row of each entry's source, scales it by the entry's weight, scatter-adds it into the
  destination's row, adds a bias row and takes the positive part. After two layers the node rows are summed per graph
  (`pool`) and mapped by a last affine map (`head`).

  Everything is stated over the host operations themselves, so the gathers and scatters are never opened: the two
  programs apply the same ones to values proved equal.
-/
import proofs.«124380_j32280974197287_1_alg».proof.ReferenceIdeal
import proofs.«124380_j32280974197287_1_alg».proof.Proof.Gen.ReferenceIdeal

noncomputable section

namespace Cert.GCN

open Idealize.ShloMosaic Cert.ReferenceIdeal Cert.ReferenceIdeal.Facts₀

variable {F : FTy → Type} [FloatOps F]

/-- The edge list as stored: two rows of node numbers. -/
abbrev Edges (F : FTy → Type) := (⟨S2x3200000, .i32⟩ : BufTy).Contents (Elt F)
/-- One node number per list entry, self-loops included. -/
abbrev Ends (F : FTy → Type) := (⟨S3300000, .i32⟩ : BufTy).Contents (Elt F)
/-- One row of hidden features per node. -/
abbrev Rows (F : FTy → Type) := (⟨S100000x64, .f32⟩ : BufTy).Contents (Elt F)

/-- The sources: row 0 of the edge list, then every node once (the self-loops). -/
def srcI (e : Edges F) : Ends F :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destinations: row 1 of the edge list, then every node once. -/
def dstI (e : Edges F) : Ends F :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers made ready for a gather: a negative number counts from the end, and the list becomes a column. -/
def wrap (v : Ends F) : (⟨S3300000x1, .i32⟩ : BufTy).Contents (Elt F) :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- The degree of each node: how many list entries end at it. -/
def deg (e : Edges F) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstI e)) (broadcastInDim S3300000 ![] bcast_S_S3300000 (constant S_ .f32 0x3F800000#32))

/-- The inverse square root of the degree where it is positive, zero elsewhere. -/
def dinv (e : Edges F) : (⟨S100000, .f32⟩ : BufTy).Contents (Elt F) :=
  select (cmpf .ogt (deg e) (broadcastInDim S100000 ![] bcast_S_S100000 (constant S_ .f32 0x00000000#32))) (Host.rsqrt (deg e)) (broadcastInDim S100000 ![] bcast_S_S100000 (id (constant S_ .f32 0x00000000#32)))

/-- The weight of each list entry: `dinv` at its source times `dinv` at its destination. -/
def norm (e : Edges F) : (⟨S3300000, .f32⟩ : BufTy).Contents (Elt F) :=
  mulf (Host.gather gather_S100000_S3300000x1_S3300000_n_0_n_n_0_1_1 (dinv e) (wrap (srcI e))) (Host.gather gather_S100000_S3300000x1_S3300000_n_0_n_n_0_1_1 (dinv e) (wrap (dstI e)))

/-- The aggregation of node rows over given lists and weights: each entry's source row, scaled by the entry's weight,
    added into the destination's row. -/
def aggOf (src dst : Ends F) (w : (⟨S3300000, .f32⟩ : BufTy).Contents (Elt F)) (h : Rows F) : Rows F :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 dst) (mulf (Host.gather gather_S100000x64_S3300000x1_S3300000x64_1_0_n_n_0_1_164 h (wrap src)) (broadcastInDim S3300000x64 ![0, 1] bcast_S3300000x1_S3300000x64_0_1 (broadcastInDim S3300000x1 ![0] bcast_S3300000_S3300000x1_0 w)))

/-- The aggregation of projected node rows over the edge list's own lists and weights. -/
def agg (e : Edges F) (h : Rows F) : Rows F := aggOf (srcI e) (dstI e) (norm e) h

/-- A bias row added to every node row, then the positive part. -/
def biasRelu (a : Rows F) (b : (⟨S64, .f32⟩ : BufTy).Contents (Elt F)) : Rows F :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The first projection: node features times the first weight matrix. -/
def proj1 (x : (⟨S100000x16, .f32⟩ : BufTy).Contents (Elt F)) (w : (⟨S16x64, .f32⟩ : BufTy).Contents (Elt F)) : Rows F :=
  Host.dotGeneral dot_S100000x16_S16x64_S100000x64_1_0_0_1_n_n none x w

/-- The second projection: hidden rows times the second weight matrix. -/
def proj2 (h : Rows F) (w : (⟨S64x64, .f32⟩ : BufTy).Contents (Elt F)) : Rows F :=
  Host.dotGeneral dot_S100000x64_S64x64_S100000x64_1_0_0_1_n_n none h w

/-- The sum of the node rows of each graph. -/
def pool (g : (⟨S100000, .i32⟩ : BufTy).Contents (Elt F)) (h : Rows F) : (⟨S128x64, .f32⟩ : BufTy).Contents (Elt F) :=
  Host.scatterAdd scatter_S128x64_S100000x1_S100000x64_1_0_0_1 (broadcastInDim S128x64 ![] bcast_S_S128x64 (constant S_ .f32 0x00000000#32)) (broadcastInDim S100000x1 ![0] bcast_S100000_S100000x1_0 g) h

/-- The classifier: pooled rows times the last matrix, plus its bias row. -/
def head (p : (⟨S128x64, .f32⟩ : BufTy).Contents (Elt F)) (w : (⟨S64x4, .f32⟩ : BufTy).Contents (Elt F)) (b : (⟨S4, .f32⟩ : BufTy).Contents (Elt F)) :
    (⟨S128x4, .f32⟩ : BufTy).Contents (Elt F) :=
  addf (Host.dotGeneral dot_S128x64_S64x4_S128x4_1_0_0_1_n_n none p w) (broadcastInDim S128x4 ![0, 1] bcast_S1x4_S128x4_0_1 (broadcastInDim S1x4 ![1] bcast_S4_S1x4_1 b))

/-- The whole network. -/
def net (x : (⟨S100000x16, .f32⟩ : BufTy).Contents (Elt F)) (e : Edges F) (g : (⟨S100000, .i32⟩ : BufTy).Contents (Elt F))
    (w1 : (⟨S16x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (wl : (⟨S64x4, .f32⟩ : BufTy).Contents (Elt F)) (bl : (⟨S4, .f32⟩ : BufTy).Contents (Elt F)) :
    (⟨S128x4, .f32⟩ : BufTy).Contents (Elt F) :=
  head (pool g (biasRelu (agg e (proj2 (biasRelu (agg e (proj1 x w1)) b1) w2)) b2)) wl bl

end Cert.GCN

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«124380_j32280974197287_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«124380_j32280974197287_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.SpecAt.lean ====
/-
  The network's stages read at an entry, at the ideal instance.

  A projection's entry at node `r` and column `q` is the sum over `k` of `x (r, k) · w (k, q)`; the bias stage's is the
  aggregated entry plus the bias vector's entry `q`, then the positive part; the classifier's is the pooled row against a
  column of the last matrix plus the bias vector's entry.
-/
import proofs.«124380_j32280974197287_1_alg».proof.Proof.Spec
import proofs.«124380_j32280974197287_1_alg».proof.Proof.LibHostAffine

noncomputable section

open scoped BigOperators

namespace Cert.GCN

open Idealize.ShloMosaic Idealize.ShloMosaic.ValueIdx Cert.ReferenceIdeal Cert.ReferenceIdeal.Facts₀

theorem proj1_apply (x : (⟨S100000x16, .f32⟩ : BufTy).Contents (Elt Ideal)) (w : (⟨S16x64, .f32⟩ : BufTy).Contents (Elt Ideal))
    (r : Fin 100000) (q : Fin 64) :
    proj1 (F := Ideal) x w (ix2 r q) = ∑ k : Fin 16, x (ix2 r k) * w (ix2 k q) := by
  unfold proj1 Host.dotGeneral
  exact Cert.LibDotGeneralNN.dotGeneral_apply dot_S100000x16_S16x64_S100000x64_1_0_0_1_n_n rfl rfl rfl rfl rfl rfl _ _ x w r q

theorem proj2_apply (h : Rows Ideal) (w : (⟨S64x64, .f32⟩ : BufTy).Contents (Elt Ideal)) (r : Fin 100000) (q : Fin 64) :
    proj2 (F := Ideal) h w (ix2 r q) = ∑ k : Fin 64, h (ix2 r k) * w (ix2 k q) := by
  unfold proj2 Host.dotGeneral
  exact Cert.LibDotGeneralNN.dotGeneral_apply dot_S100000x64_S64x64_S100000x64_1_0_0_1_n_n rfl rfl rfl rfl rfl rfl _ _ h w r q

theorem biasRelu_apply (a : Rows Ideal) (b : (⟨S64, .f32⟩ : BufTy).Contents (Elt Ideal)) (r : Fin 100000) (q : Fin 64) :
    biasRelu (F := Ideal) a b (ix2 r q) = max (a (ix2 r q) + b (ix1 q)) 0 := by
  unfold biasRelu
  refine (Cert.LibHostAffine.relu_apply _ bcast_S_S100000x64 (ix2 r q)).trans ?_
  rw [addf_apply, Cert.LibHostAffine.bias_apply b bcast_S64_S1x64_1 bcast_S1x64_S100000x64_0_1 r q]

theorem head_apply (p : (⟨S128x64, .f32⟩ : BufTy).Contents (Elt Ideal)) (w : (⟨S64x4, .f32⟩ : BufTy).Contents (Elt Ideal))
    (b : (⟨S4, .f32⟩ : BufTy).Contents (Elt Ideal)) (r : Fin 128) (q : Fin 4) :
    head (F := Ideal) p w b (ix2 r q) = (∑ k : Fin 64, p (ix2 r k) * w (ix2 k q)) + b (ix1 q) := by
  unfold head
  exact Cert.LibHostAffine.affine_apply dot_S128x64_S64x4_S128x4_1_0_0_1_n_n rfl rfl rfl rfl rfl rfl none p w b bcast_S4_S1x4_1 bcast_S1x4_S128x4_0_1 r q

end Cert.GCN

end
-- ==== Proof.Region0.lean ====
/-
  The first launch leaves the first projection in its result array.

  The launch walks ten blocks of 10000 node rows. At block `t` the body multiplies rows `10000·t … 10000·t + 9999` of
  the node array by the whole weight matrix and writes the product back as the same rows of the result. So what point
  `t` writes is block `t` of the whole product `proj1`, and the ten blocks cover the result array: it ends holding
  `proj1` of the two arrays as the launch finds them.
-/
import proofs.«124380_j32280974197287_1_alg».proof.Proof.Gen.KernelIdeal.Frame
import proofs.«124380_j32280974197287_1_alg».proof.Proof.Payloads
import proofs.«124380_j32280974197287_1_alg».proof.Proof.SpecAt
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The printed index maps over the grid: the node rows and the result move together, one block per point; the weight
    matrix stays. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of node rows times the matrix is the same rows of the whole product: stated over plain arrays, the block's
    rows being rows `n · 10000 + ·` of the array. -/
theorem proj1_block (x0 : Vec Ideal S10000x16 .f32) (x1 : Vec Ideal S16x64 .f32)
    (X : S100000x16.Idx → EReal) (W : S16x64.Idx → EReal) (n : Nat)
    (h0 : ∀ (y : S10000x16.Idx) (z : S100000x16.Idx), (z 0).val = n * 10000 + (y 0).val → (z 1).val = (y 1).val → x0 y = X z)
    (h1 : ∀ y : S16x64.Idx, x1 y = W y)
    (j : S10000x64.Idx) (i : S100000x64.Idx) (hi0 : (i 0).val = n * 10000 + (j 0).val) (hi1 : (i 1).val = (j 1).val) :
    k0_pay1 (F := Ideal) x0 x1 j = Cert.GCN.proj1 (F := Ideal) X W i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext hi1
  subst hq
  refine (pay0_apply x0 x1 p q').trans ?_
  refine Eq.trans ?_ (Cert.GCN.proj1_apply X W r q').symm
  refine Finset.sum_congr rfl fun k _ => ?_
  rw [h0 (ix2 p k) (ix2 r k) hi0 rfl, h1]

/-- What point `t` writes back is block `t` of the product of the two arrays as the launch finds them. -/
theorem flushed0 (c : Dev nD) (t : Fin cfg0.N) :
    (dat0 V c).flushed 2 t = ((cfg0.win 2).blk t).view.read (Elt Ideal) (Cert.GCN.proj1 (F := Ideal) (V c main_arg0) (V c main_arg3)) := by
  show (cfg0.win 2).cut (grid0.coords t) ((dat0 V c).after 2 t) = _
  rw [after0_2]
  unfold out0_2
  rw [View.canon_unit_zero zero_offsets0]
  simp only [View.ld_unit_zero (S := S10000x16) zero_offsets0, View.ld_unit_zero (S := S16x64) zero_offsets0]
  obtain ⟨e0, e1, e2, e3, e4, e5⟩ := index_maps0 t
  funext j
  show k0_pay1 (F := Ideal) (iblk0 V c 0 t) (iblk0 V c 1 t) j
    = Cert.GCN.proj1 (F := Ideal) (V c main_arg0) (V c main_arg3) (((cfg0.win 2).blk t).view.emb j)
  refine proj1_block (iblk0 V c 0 t) (iblk0 V c 1 t) (V c main_arg0) (V c main_arg3) t.val ?_ ?_ j _ ?_ ?_
  · intro y z hz0 hz1
    show V c main_arg0 (((cfg0.win 0).blk t).view.emb y) = V c main_arg0 z
    refine congrArg _ (funext fun a => Fin.ext ?_)
    match a with
    | ⟨0, _⟩ => show win0_0.index t (0 : Fin 2) * 10000 + 1 * (y 0).val = (z 0).val; rw [e0, hz0]; omega
    | ⟨1, _⟩ => show win0_0.index t (1 : Fin 2) * 16 + 1 * (y 1).val = (z 1).val; rw [e1, hz1]; omega
  · intro y
    show V c main_arg3 (((cfg0.win 1).blk t).view.emb y) = V c main_arg3 y
    refine congrArg _ (funext fun a => Fin.ext ?_)
    match a with
    | ⟨0, _⟩ => show win0_1.index t (0 : Fin 2) * 16 + 1 * (y 0).val = (y 0).val; rw [e2]; omega
    | ⟨1, _⟩ => show win0_1.index t (1 : Fin 2) * 64 + 1 * (y 1).val = (y 1).val; rw [e3]; omega
  · show win0_2.index t (0 : Fin 2) * 10000 + 1 * (j 0).val = t.val * 10000 + (j 0).val; rw [e4]; omega
  · show win0_2.index t (1 : Fin 2) * 64 + 1 * (j 1).val = (j 1).val; rw [e5]; omega

/-- An index of the result array is in point `t`'s block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the result is in the block of point `r / 10000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨-, -, -, -, e4, e5⟩ := index_maps0 ⟨(i 0).val / 10000, hlt⟩
  refine ⟨⟨(i 0).val / 10000, hlt⟩, flush0_2 _, ?_⟩
  rw [mem_block0]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e5]; omega

/-- The result array after the launch: the first projection of the node features and the first weight matrix as the
    launch finds them. -/
theorem value0 (c : Dev nD) :
    (dat0 V c).arrAt 2 cfg0.N = Cert.GCN.proj1 (F := Ideal) (V c main_arg0) (V c main_arg3) :=
  (dat0 V c).arrAt_eq_of_cover 2 _ (fun t _ => flushed0 V c t) cover0

end Cert.KernelIdeal.Net

end
-- ==== Proof.Host.lean ====
/-
  The host operations of the kernel's program, stretch by stretch, over any buffer contents.

  Each stretch is read at the buffers the next launch (or the next stretch) takes, as a function of what the stretch
  finds: before the first launch the source and destination lists, and the entries' weights, of the edge list; between
  launches the aggregation of a projection over those lists and weights, and a bias vector laid out as one row; before
  the last launch the per-graph sum. Every other buffer a later stage reads passes through a stretch unchanged.
  Nothing here depends on what a float is: the statements hold at every instance.
-/
import proofs.«124380_j32280974197287_1_alg».proof.Proof.Gen.KernelIdeal.Launch
import proofs.«124380_j32280974197287_1_alg».proof.Proof.Spec
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable {F : FTy → Type} [FloatOps F] (V : Valuation τ sig (Elt F))

/-! ## Before the first launch -/

/-- The source list: row 0 of the edge list, then the self-loops. -/
theorem host0_src : after hostOps0_2 (after hostOps0_1 (after hostOps0 V)) (Proc.devRef .tc main_v3)
    = Cert.GCN.srcI (F := F) (V (Proc.devRef .tc main_arg1)) := by
  dsimp only [hostOps0, hostOps0_1, hostOps0_2]
  after_results_simp
  unfold Cert.GCN.srcI
  rfl

/-- The destination list: row 1 of the edge list, then the self-loops. -/
theorem host0_dst : after hostOps0_2 (after hostOps0_1 (after hostOps0 V)) (Proc.devRef .tc main_v6)
    = Cert.GCN.dstI (F := F) (V (Proc.devRef .tc main_arg1)) := by
  dsimp only [hostOps0, hostOps0_1, hostOps0_2]
  after_results_simp
  unfold Cert.GCN.dstI
  rfl

/-- The entries' weights. -/
theorem host0_norm : after hostOps0_2 (after hostOps0_1 (after hostOps0 V)) (Proc.devRef .tc main_v29)
    = Cert.GCN.norm (F := F) (V (Proc.devRef .tc main_arg1)) := by
  dsimp only [hostOps0, hostOps0_1, hostOps0_2]
  after_results_simp
  unfold Cert.GCN.norm Cert.GCN.dinv Cert.GCN.deg Cert.GCN.wrap Cert.GCN.srcI Cert.GCN.dstI
  rfl

/-- The float arguments and the graph numbers: every argument but the edge list. -/
abbrev IsArg (b : Ref sig .tc) : Prop :=
  b = main_arg0 ∨ b = main_arg3 ∨ b = main_arg2 ∨ b = main_arg4 ∨ b = main_arg5 ∨ b = main_arg6 ∨ b = main_arg7 ∨ b = main_arg8

/-- No host operation before the first launch writes an argument. -/
theorem host0_keep (b : Ref sig .tc) (hb : IsArg b) :
    after hostOps0_2 (after hostOps0_1 (after hostOps0 V)) (Proc.devRef .tc b) = V (Proc.devRef .tc b) := by
  rcases hb with rfl | rfl | rfl | rfl | rfl | rfl | rfl | rfl <;>
  · dsimp only [hostOps0, hostOps0_1, hostOps0_2]
    after_results_simp

/-! ## Between the first and the second launch -/

/-- The projection aggregated over the lists and weights the stretch finds. -/
theorem host1_agg : after hostOps1 V (Proc.devRef .tc main_v43)
    = Cert.GCN.aggOf (F := F) (V (Proc.devRef .tc main_v3)) (V (Proc.devRef .tc main_v6)) (V (Proc.devRef .tc main_v29))
        (V (Proc.devRef .tc main_v30)) := by
  dsimp only [hostOps1]
  after_results_simp
  unfold Cert.GCN.aggOf Cert.GCN.wrap
  rfl

/-- The first bias vector laid out as one row. -/
theorem host1_row : after hostOps1 V (Proc.devRef .tc main_v44)
    = shapeCast S1x64 (V (Proc.devRef .tc main_arg4)) Facts₀.shapeCasts_S64_S1x64 := by
  dsimp only [hostOps1]
  after_results_simp
  rfl

/-- What the stretch leaves alone. -/
abbrev Kept1 (b : Ref sig .tc) : Prop :=
  b = main_v3 ∨ b = main_v6 ∨ b = main_v29 ∨ b = main_arg2 ∨ b = main_arg5 ∨ b = main_arg6 ∨ b = main_arg7 ∨ b = main_arg8

theorem host1_keep (b : Ref sig .tc) (hb : Kept1 b) : after hostOps1 V (Proc.devRef .tc b) = V (Proc.devRef .tc b) := by
  rcases hb with rfl | rfl | rfl | rfl | rfl | rfl | rfl | rfl <;>
  · dsimp only [hostOps1]
    after_results_simp

/-! ## Between the third and the fourth launch -/

/-- The second projection aggregated over the same lists and weights. -/
theorem host3_agg : after hostOps3 V (Proc.devRef .tc main_v59)
    = Cert.GCN.aggOf (F := F) (V (Proc.devRef .tc main_v3)) (V (Proc.devRef .tc main_v6)) (V (Proc.devRef .tc main_v29))
        (V (Proc.devRef .tc main_v46)) := by
  dsimp only [hostOps3]
  after_results_simp
  unfold Cert.GCN.aggOf Cert.GCN.wrap
  rfl

/-- The second bias vector laid out as one row. -/
theorem host3_row : after hostOps3 V (Proc.devRef .tc main_v60)
    = shapeCast S1x64 (V (Proc.devRef .tc main_arg6)) Facts₀.shapeCasts_S64_S1x64 := by
  dsimp only [hostOps3]
  after_results_simp
  rfl

/-- What the stretch leaves alone. -/
abbrev Kept3 (b : Ref sig .tc) : Prop := b = main_arg2 ∨ b = main_arg7 ∨ b = main_arg8

theorem host3_keep (b : Ref sig .tc) (hb : Kept3 b) : after hostOps3 V (Proc.devRef .tc b) = V (Proc.devRef .tc b) := by
  rcases hb with rfl | rfl | rfl <;>
  · dsimp only [hostOps3]
    after_results_simp

/-! ## Before the last launch -/

/-- The hidden rows summed per graph. -/
theorem host4_pool : after hostOps4 V (Proc.devRef .tc main_v64)
    = Cert.GCN.pool (F := F) (V (Proc.devRef .tc main_arg2)) (V (Proc.devRef .tc main_v61)) := by
  dsimp only [hostOps4]
  after_results_simp
  unfold Cert.GCN.pool
  rfl

/-- The last bias vector laid out as one row. -/
theorem host4_row : after hostOps4 V (Proc.devRef .tc main_v65)
    = shapeCast S1x4 (V (Proc.devRef .tc main_arg8)) Facts₀.shapeCasts_S4_S1x4 := by
  dsimp only [hostOps4]
  after_results_simp
  rfl

/-- The last weight matrix passes through. -/
theorem host4_keep : after hostOps4 V (Proc.devRef .tc main_arg7) = V (Proc.devRef .tc main_arg7) := by
  dsimp only [hostOps4]
  after_results_simp

end Cert.KernelIdeal.Net

end
-- ==== Proof.Fold0.lean ====
/-
  The buffers up to the first launch's exit.

  Before the first launch the host works out, from the edge list alone, the source and destination lists (with the
  self-loops), the degrees, and the weight of every list entry; nothing writes an argument array. The first launch then
  leaves the first projection in its result array and every other buffer as it found it. So at its exit: the three
  lists are `srcI`, `dstI` and `norm` of the edge list, the result is `proj1` of the node features and the first
  weight matrix, and the other arguments are as launched.
-/
import proofs.«124380_j32280974197287_1_alg».proof.Proof.Gen.KernelIdeal.Frame
import proofs.«124380_j32280974197287_1_alg».proof.Proof.Region0
import proofs.«124380_j32280974197287_1_alg».proof.Proof.Host
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- A buffer's contents at launch are the launch memory's. -/
theorem W0_arg (b : Ref sig .tc) : W0 m ρ c (Proc.devRef .tc b) = arg m c b := rfl

/-- A one-row array made from a vector holds, at column `q`, the vector's entry `q`. -/
theorem row_of_vec {α : Type} {N : Nat} (v : (⟨1, ![N]⟩ : Shape).Idx → α) (h : (⟨1, ![N]⟩ : Shape).ShapeCasts ⟨2, ![1, N]⟩) (q : Fin N) :
    shapeCast ⟨2, ![1, N]⟩ v h (ix2 (0 : Fin 1) q) = v (ix1 q) :=
  (shapeCast_addUnit_apply (![N]) v h (ix2 (0 : Fin 1) q)).trans (congrArg v (funext fun a => by
    match a with
    | ⟨0, _⟩ => rfl))

/-- The source list when the first launch begins. -/
theorem W3_src : W3 m ρ c (Proc.devRef .tc main_v3) = Cert.GCN.srcI (F := Ideal) (arg m c main_arg1) :=
  (host0_src (W0 m ρ c)).trans (congrArg (Cert.GCN.srcI (F := Ideal)) (W0_arg m ρ c main_arg1))

/-- The destination list when the first launch begins. -/
theorem W3_dst : W3 m ρ c (Proc.devRef .tc main_v6) = Cert.GCN.dstI (F := Ideal) (arg m c main_arg1) :=
  (host0_dst (W0 m ρ c)).trans (congrArg (Cert.GCN.dstI (F := Ideal)) (W0_arg m ρ c main_arg1))

/-- The entries' weights when the first launch begins. -/
theorem W3_norm : W3 m ρ c (Proc.devRef .tc main_v29) = Cert.GCN.norm (F := Ideal) (arg m c main_arg1) :=
  (host0_norm (W0 m ρ c)).trans (congrArg (Cert.GCN.norm (F := Ideal)) (W0_arg m ρ c main_arg1))

/-- No host operation before the first launch writes an argument. -/
theorem W3_arg (b : Ref sig .tc) (hb : IsArg b) : W3 m ρ c (Proc.devRef .tc b) = arg m c b :=
  (host0_keep (W0 m ρ c) b hb).trans (W0_arg m ρ c b)

/-- The first launch's result: the first projection. -/
theorem W4_proj : W4 m ρ c (Proc.devRef .tc main_v30) = Cert.GCN.proj1 (F := Ideal) (arg m c main_arg0) (arg m c main_arg3) :=
  (W4_arr m ρ c 2).trans ((value0 (V3 m ρ) c).trans
    (congrArg₂ (Cert.GCN.proj1 (F := Ideal)) (W3_arg m ρ c main_arg0 (by decide)) (W3_arg m ρ c main_arg3 (by decide))))

theorem W4_src : W4 m ρ c (Proc.devRef .tc main_v3) = Cert.GCN.srcI (F := Ideal) (arg m c main_arg1) :=
  (W4_of_ne m ρ c main_v3 (by decide)).trans (W3_src m ρ c)

theorem W4_dst : W4 m ρ c (Proc.devRef .tc main_v6) = Cert.GCN.dstI (F := Ideal) (arg m c main_arg1) :=
  (W4_of_ne m ρ c main_v6 (by decide)).trans (W3_dst m ρ c)

theorem W4_norm : W4 m ρ c (Proc.devRef .tc main_v29) = Cert.GCN.norm (F := Ideal) (arg m c main_arg1) :=
  (W4_of_ne m ρ c main_v29 (by decide)).trans (W3_norm m ρ c)

/-- The arguments the later stages read. -/
abbrev IsArg4 (b : Ref sig .tc) : Prop :=
  b = main_arg2 ∨ b = main_arg4 ∨ b = main_arg5 ∨ b = main_arg6 ∨ b = main_arg7 ∨ b = main_arg8

/-- The first launch leaves them as launched. -/
theorem W4_arg (b : Ref sig .tc) (hb : IsArg4 b) : W4 m ρ c (Proc.devRef .tc b) = arg m c b := by
  rcases hb with rfl | rfl | rfl | rfl | rfl | rfl <;>
  exact (W4_of_ne m ρ c _ (by decide)).trans (W3_arg m ρ c _ (by decide))

end Cert.KernelIdeal.Net

end
-- ==== Proof.Region1.lean ====
/-
  The second launch leaves the first layer's activations in its result array.

  The launch walks ten blocks of 10000 node rows of the aggregated array. At block `t` the body adds the one bias row
  to every row of the block, takes the positive part, and writes the block back as the same rows of the result. So what
  point `t` writes is block `t` of `biasRelu` of the whole aggregated array, and the ten blocks cover the result.
  The bias arrives as a one-row array; `biasRelu` takes the bias vector, so the row is named by its entries.
-/
import proofs.«124380_j32280974197287_1_alg».proof.Proof.Gen.KernelIdeal.Frame
import proofs.«124380_j32280974197287_1_alg».proof.Proof.Payloads
import proofs.«124380_j32280974197287_1_alg».proof.Proof.SpecAt
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps over the grid: the aggregated rows and the result move together, one block per point; the
    bias row stays. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block of rows with the bias added and the positive part taken is the same rows of the whole array so treated. -/
theorem biasRelu_block1 (x0 : Vec Ideal S10000x64 .f32) (x1 : Vec Ideal S1x64 .f32)
    (A : S100000x64.Idx → EReal) (b : S64.Idx → EReal) (n : Nat)
    (h0 : ∀ (y : S10000x64.Idx) (z : S100000x64.Idx), (z 0).val = n * 10000 + (y 0).val → (z 1).val = (y 1).val → x0 y = A z)
    (h1 : ∀ q : Fin 64, x1 (ix2 (0 : Fin 1) q) = b (ix1 q))
    (j : S10000x64.Idx) (i : S100000x64.Idx) (hi0 : (i 0).val = n * 10000 + (j 0).val) (hi1 : (i 1).val = (j 1).val) :
    k1_pay1 (F := Ideal) x0 x1 j = Cert.GCN.biasRelu (F := Ideal) A b i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext hi1
  subst hq
  refine (pay1_apply x0 x1 p q').trans ?_
  refine Eq.trans ?_ (Cert.GCN.biasRelu_apply A b r q').symm
  rw [h0 (ix2 p q') (ix2 r q') hi0 rfl, h1]

/-- What point `t` writes back is block `t` of the activations of the whole aggregated array. -/
theorem flushed1 (c : Dev nD) (b : S64.Idx → EReal)
    (hb : ∀ q : Fin 64, (V c main_v44 : S1x64.Idx → EReal) (ix2 (0 : Fin 1) q) = b (ix1 q)) (t : Fin cfg1.N) :
    (dat1 V c).flushed 2 t = ((cfg1.win 2).blk t).view.read (Elt Ideal) (Cert.GCN.biasRelu (F := Ideal) (V c main_v43) b) := by
  show (cfg1.win 2).cut (grid1.coords t) ((dat1 V c).after 2 t) = _
  rw [after1_2]
  unfold out1_2
  rw [View.canon_unit_zero zero_offsets1]
  simp only [View.ld_unit_zero (S := S10000x64) zero_offsets1, View.ld_unit_zero (S := S1x64) zero_offsets1]
  obtain ⟨e0, e1, e2, e3, e4, e5⟩ := index_maps1 t
  funext j
  show k1_pay1 (F := Ideal) (iblk1 V c 0 t) (iblk1 V c 1 t) j
    = Cert.GCN.biasRelu (F := Ideal) (V c main_v43) b (((cfg1.win 2).blk t).view.emb j)
  refine biasRelu_block1 (iblk1 V c 0 t) (iblk1 V c 1 t) (V c main_v43) b t.val ?_ ?_ j _ ?_ ?_
  · intro y z hz0 hz1
    show V c main_v43 (((cfg1.win 0).blk t).view.emb y) = V c main_v43 z
    refine congrArg _ (funext fun a => Fin.ext ?_)
    match a with
    | ⟨0, _⟩ => show win1_0.index t (0 : Fin 2) * 10000 + 1 * (y 0).val = (z 0).val; rw [e0, hz0]; omega
    | ⟨1, _⟩ => show win1_0.index t (1 : Fin 2) * 64 + 1 * (y 1).val = (z 1).val; rw [e1, hz1]; omega
  · intro q
    refine Eq.trans ?_ (hb q)
    show V c main_v44 (((cfg1.win 1).blk t).view.emb (ix2 (0 : Fin 1) q)) = V c main_v44 (ix2 (0 : Fin 1) q)
    refine congrArg _ (funext fun a => Fin.ext ?_)
    match a with
    | ⟨0, _⟩ => show win1_1.index t (0 : Fin 2) * 1 + 1 * 0 = 0; rw [e2]
    | ⟨1, _⟩ => show win1_1.index t (1 : Fin 2) * 64 + 1 * q.val = q.val; rw [e3]; omega
  · show win1_2.index t (0 : Fin 2) * 10000 + 1 * (j 0).val = t.val * 10000 + (j 0).val; rw [e4]; omega
  · show win1_2.index t (1 : Fin 2) * 64 + 1 * (j 1).val = (j 1).val; rw [e5]; omega

/-- An index of the result array is in point `t`'s block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Row `r` of the result is in the block of point `r / 10000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨-, -, -, -, e4, e5⟩ := index_maps1 ⟨(i 0).val / 10000, hlt⟩
  refine ⟨⟨(i 0).val / 10000, hlt⟩, flush1_2 _, ?_⟩
  rw [mem_block1]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 64 ≤ (i 1).val ∧ (i 1).val < win1_2.index ⟨(i 0).val / 10000, hlt⟩ (1 : Fin 2) * 64 + 64
    rw [e5]; omega

/-- The result array after the launch: the bias added to the aggregated array as the launch finds it, then the positive
    part, for the bias vector whose entries the one-row array holds. -/
theorem value1 (c : Dev nD) (b : S64.Idx → EReal)
    (hb : ∀ q : Fin 64, (V c main_v44 : S1x64.Idx → EReal) (ix2 (0 : Fin 1) q) = b (ix1 q)) :
    (dat1 V c).arrAt 2 cfg1.N = Cert.GCN.biasRelu (F := Ideal) (V c main_v43) b :=
  (dat1 V c).arrAt_eq_of_cover 2 _ (fun t _ => flushed1 V c b hb t) cover1

end Cert.KernelIdeal.Net

end
-- ==== Proof.Fold1.lean ====
/-
  From the first launch's exit to the second's.

  Between the two launches the host gathers the projected row of every list entry's source, scales it by the entry's
  weight and scatter-adds it into the destination's row — the aggregation of the first projection — and lays the first
  bias vector out as one row. The second launch adds that row to every aggregated row and takes the positive part: the
  first hidden layer `hid1`. The lists, the weights and the remaining arguments pass through unchanged.
-/
import proofs.«124380_j32280974197287_1_alg».proof.Proof.Fold0
import proofs.«124380_j32280974197287_1_alg».proof.Proof.Region1

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The first hidden layer as a function of the arguments as launched. -/
abbrev hid1 : Cert.GCN.Rows Ideal :=
  Cert.GCN.biasRelu (F := Ideal) (Cert.GCN.aggOf (F := Ideal) (Cert.GCN.srcI (F := Ideal) (arg m c main_arg1)) (Cert.GCN.dstI (F := Ideal) (arg m c main_arg1)) (Cert.GCN.norm (F := Ideal) (arg m c main_arg1)) (Cert.GCN.proj1 (F := Ideal) (arg m c main_arg0) (arg m c main_arg3))) (arg m c main_arg4)

/-- The aggregated first projection when the second launch begins. -/
theorem W5_agg : W5 m ρ c (Proc.devRef .tc main_v43) = Cert.GCN.aggOf (F := Ideal) (Cert.GCN.srcI (F := Ideal) (arg m c main_arg1)) (Cert.GCN.dstI (F := Ideal) (arg m c main_arg1)) (Cert.GCN.norm (F := Ideal) (arg m c main_arg1)) (Cert.GCN.proj1 (F := Ideal) (arg m c main_arg0) (arg m c main_arg3)) :=
  (host1_agg (W4 m ρ c)).trans (by rw [W4_src m ρ c, W4_dst m ρ c, W4_norm m ρ c, W4_proj m ρ c])

/-- The first bias laid out as one row. -/
theorem W5_bias_row (q : Fin 64) :
    (W5 m ρ c (Proc.devRef .tc main_v44) : S1x64.Idx → EReal) (ix2 (0 : Fin 1) q) = (arg m c main_arg4 : S64.Idx → EReal) (ix1 q) :=
  (congrFun (host1_row (W4 m ρ c)) (ix2 (0 : Fin 1) q)).trans
    ((row_of_vec _ _ q).trans (congrFun (W4_arg m ρ c main_arg4 (by decide)) (ix1 q)))

/-- The second launch's result: the first hidden layer. -/
theorem W6_hid : W6 m ρ c (Proc.devRef .tc main_v45) = hid1 m c :=
  (W6_arr m ρ c 2).trans ((value1 (V5 m ρ) c (arg m c main_arg4) (W5_bias_row m ρ c)).trans
    (congrArg (fun a => Cert.GCN.biasRelu (F := Ideal) a (arg m c main_arg4)) (W5_agg m ρ c)))

theorem W6_src : W6 m ρ c (Proc.devRef .tc main_v3) = Cert.GCN.srcI (F := Ideal) (arg m c main_arg1) :=
  (W6_of_ne m ρ c main_v3 (by decide)).trans ((host1_keep (W4 m ρ c) main_v3 (by decide)).trans (W4_src m ρ c))

theorem W6_dst : W6 m ρ c (Proc.devRef .tc main_v6) = Cert.GCN.dstI (F := Ideal) (arg m c main_arg1) :=
  (W6_of_ne m ρ c main_v6 (by decide)).trans ((host1_keep (W4 m ρ c) main_v6 (by decide)).trans (W4_dst m ρ c))

theorem W6_norm : W6 m ρ c (Proc.devRef .tc main_v29) = Cert.GCN.norm (F := Ideal) (arg m c main_arg1) :=
  (W6_of_ne m ρ c main_v29 (by decide)).trans ((host1_keep (W4 m ρ c) main_v29 (by decide)).trans (W4_norm m ρ c))

/-- The arguments the later stages read. -/
abbrev IsArg6 (b : Ref sig .tc) : Prop :=
  b = main_arg2 ∨ b = main_arg5 ∨ b = main_arg6 ∨ b = main_arg7 ∨ b = main_arg8

theorem W6_arg (b : Ref sig .tc) (hb : IsArg6 b) : W6 m ρ c (Proc.devRef .tc b) = arg m c b := by
  rcases hb with rfl | rfl | rfl | rfl | rfl <;>
  exact (W6_of_ne m ρ c _ (by decide)).trans ((host1_keep (W4 m ρ c) _ (by decide)).trans (W4_arg m ρ c _ (by decide)))

end Cert.KernelIdeal.Net

end
-- ==== Proof.Region2.lean ====
/-
  The third launch leaves the second projection in its result array.

  As in the first launch, ten blocks of 10000 node rows: at block `t` the body multiplies rows `10000·t … 10000·t + 9999`
  of the first layer's activations by the whole second weight matrix and writes the product back as the same rows of the
  result. What point `t` writes is block `t` of the whole product `proj2`, the ten blocks cover the result array, and it
  ends holding `proj2` of the two arrays as the launch finds them.
-/
import proofs.«124380_j32280974197287_1_alg».proof.Proof.Gen.KernelIdeal.Frame
import proofs.«124380_j32280974197287_1_alg».proof.Proof.Payloads
import proofs.«124380_j32280974197287_1_alg».proof.Proof.SpecAt
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The printed index maps over the grid: the node rows and the result move together, one block per point; the weight
    matrix stays. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of node rows times the matrix is the same rows of the whole product: stated over plain arrays, the block's
    rows being rows `n · 10000 + ·` of the array. -/
theorem proj2_block (x0 : Vec Ideal S10000x64 .f32) (x1 : Vec Ideal S64x64 .f32)
    (X : S100000x64.Idx → EReal) (W : S64x64.Idx → EReal) (n : Nat)
    (h0 : ∀ (y : S10000x64.Idx) (z : S100000x64.Idx), (z 0).val = n * 10000 + (y 0).val → (z 1).val = (y 1).val → x0 y = X z)
    (h1 : ∀ y : S64x64.Idx, x1 y = W y)
    (j : S10000x64.Idx) (i : S100000x64.Idx) (hi0 : (i 0).val = n * 10000 + (j 0).val) (hi1 : (i 1).val = (j 1).val) :
    k2_pay1 (F := Ideal) x0 x1 j = Cert.GCN.proj2 (F := Ideal) X W i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext hi1
  subst hq
  refine (pay2_apply x0 x1 p q').trans ?_
  refine Eq.trans ?_ (Cert.GCN.proj2_apply X W r q').symm
  refine Finset.sum_congr rfl fun k _ => ?_
  rw [h0 (ix2 p k) (ix2 r k) hi0 rfl, h1]

/-- What point `t` writes back is block `t` of the product of the two arrays as the launch finds them. -/
theorem flushed2 (c : Dev nD) (t : Fin cfg2.N) :
    (dat2 V c).flushed 2 t = ((cfg2.win 2).blk t).view.read (Elt Ideal) (Cert.GCN.proj2 (F := Ideal) (V c main_v45) (V c main_arg5)) := by
  show (cfg2.win 2).cut (grid2.coords t) ((dat2 V c).after 2 t) = _
  rw [after2_2]
  unfold out2_2
  rw [View.canon_unit_zero zero_offsets2]
  simp only [View.ld_unit_zero (S := S10000x64) zero_offsets2, View.ld_unit_zero (S := S64x64) zero_offsets2]
  obtain ⟨e0, e1, e2, e3, e4, e5⟩ := index_maps2 t
  funext j
  show k2_pay1 (F := Ideal) (iblk2 V c 0 t) (iblk2 V c 1 t) j
    = Cert.GCN.proj2 (F := Ideal) (V c main_v45) (V c main_arg5) (((cfg2.win 2).blk t).view.emb j)
  refine proj2_block (iblk2 V c 0 t) (iblk2 V c 1 t) (V c main_v45) (V c main_arg5) t.val ?_ ?_ j _ ?_ ?_
  · intro y z hz0 hz1
    show V c main_v45 (((cfg2.win 0).blk t).view.emb y) = V c main_v45 z
    refine congrArg _ (funext fun a => Fin.ext ?_)
    match a with
    | ⟨0, _⟩ => show win2_0.index t (0 : Fin 2) * 10000 + 1 * (y 0).val = (z 0).val; rw [e0, hz0]; omega
    | ⟨1, _⟩ => show win2_0.index t (1 : Fin 2) * 64 + 1 * (y 1).val = (z 1).val; rw [e1, hz1]; omega
  · intro y
    show V c main_arg5 (((cfg2.win 1).blk t).view.emb y) = V c main_arg5 y
    refine congrArg _ (funext fun a => Fin.ext ?_)
    match a with
    | ⟨0, _⟩ => show win2_1.index t (0 : Fin 2) * 64 + 1 * (y 0).val = (y 0).val; rw [e2]; omega
    | ⟨1, _⟩ => show win2_1.index t (1 : Fin 2) * 64 + 1 * (y 1).val = (y 1).val; rw [e3]; omega
  · show win2_2.index t (0 : Fin 2) * 10000 + 1 * (j 0).val = t.val * 10000 + (j 0).val; rw [e4]; omega
  · show win2_2.index t (1 : Fin 2) * 64 + 1 * (j 1).val = (j 1).val; rw [e5]; omega

/-- An index of the result array is in point `t`'s block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row `r` of the result is in the block of point `r / 10000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have hlt : (i 0).val / 10000 < cfg2.N := by rw [hN]; omega
  obtain ⟨-, -, -, -, e4, e5⟩ := index_maps2 ⟨(i 0).val / 10000, hlt⟩
  refine ⟨⟨(i 0).val / 10000, hlt⟩, flush2_2 _, ?_⟩
  rw [mem_block2]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 64 ≤ (i 1).val ∧ (i 1).val < win2_2.index ⟨(i 0).val / 10000, hlt⟩ (1 : Fin 2) * 64 + 64
    rw [e5]; omega

/-- The result array after the launch: the second projection of the activations and the second weight matrix as the
    launch finds them. -/
theorem value2 (c : Dev nD) :
    (dat2 V c).arrAt 2 cfg2.N = Cert.GCN.proj2 (F := Ideal) (V c main_v45) (V c main_arg5) :=
  (dat2 V c).arrAt_eq_of_cover 2 _ (fun t _ => flushed2 V c t) cover2

end Cert.KernelIdeal.Net

end
-- ==== Proof.Fold2.lean ====
/-
  The third launch: the second projection.

  It multiplies the first hidden layer by the second weight matrix and leaves every other buffer as it found it.
-/
import proofs.«124380_j32280974197287_1_alg».proof.Proof.Fold1
import proofs.«124380_j32280974197287_1_alg».proof.Proof.Region2

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The third launch's result: the second projection of the first hidden layer. -/
theorem W7_proj : W7 m ρ c (Proc.devRef .tc main_v46) = Cert.GCN.proj2 (F := Ideal) (hid1 m c) (arg m c main_arg5) :=
  (W7_arr m ρ c 2).trans ((value2 (V6 m ρ) c).trans
    (congrArg₂ (Cert.GCN.proj2 (F := Ideal)) (W6_hid m ρ c) (W6_arg m ρ c main_arg5 (by decide))))

theorem W7_src : W7 m ρ c (Proc.devRef .tc main_v3) = Cert.GCN.srcI (F := Ideal) (arg m c main_arg1) :=
  (W7_of_ne m ρ c main_v3 (by decide)).trans (W6_src m ρ c)

theorem W7_dst : W7 m ρ c (Proc.devRef .tc main_v6) = Cert.GCN.dstI (F := Ideal) (arg m c main_arg1) :=
  (W7_of_ne m ρ c main_v6 (by decide)).trans (W6_dst m ρ c)

theorem W7_norm : W7 m ρ c (Proc.devRef .tc main_v29) = Cert.GCN.norm (F := Ideal) (arg m c main_arg1) :=
  (W7_of_ne m ρ c main_v29 (by decide)).trans (W6_norm m ρ c)

/-- The arguments the later stages read. -/
abbrev IsArg7 (b : Ref sig .tc) : Prop :=
  b = main_arg2 ∨ b = main_arg6 ∨ b = main_arg7 ∨ b = main_arg8

theorem W7_arg (b : Ref sig .tc) (hb : IsArg7 b) : W7 m ρ c (Proc.devRef .tc b) = arg m c b := by
  rcases hb with rfl | rfl | rfl | rfl <;>
  exact (W7_of_ne m ρ c _ (by decide)).trans (W6_arg m ρ c _ (by decide))

end Cert.KernelIdeal.Net

end
-- ==== Proof.Region3.lean ====
/-
  The fourth launch leaves the second layer's activations in its result array.

  The launch walks ten blocks of 10000 node rows of the aggregated array. At block `t` the body adds the one bias row
  to every row of the block, takes the positive part, and writes the block back as the same rows of the result. So what
  point `t` writes is block `t` of `biasRelu` of the whole aggregated array, and the ten blocks cover the result.
  The bias arrives as a one-row array; `biasRelu` takes the bias vector, so the row is named by its entries.
-/
import proofs.«124380_j32280974197287_1_alg».proof.Proof.Gen.KernelIdeal.Frame
import proofs.«124380_j32280974197287_1_alg».proof.Proof.Payloads
import proofs.«124380_j32280974197287_1_alg».proof.Proof.SpecAt
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- The printed index maps over the grid: the aggregated rows and the result move together, one block per point; the
    bias row stays. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A block of rows with the bias added and the positive part taken is the same rows of the whole array so treated. -/
theorem biasRelu_block3 (x0 : Vec Ideal S10000x64 .f32) (x1 : Vec Ideal S1x64 .f32)
    (A : S100000x64.Idx → EReal) (b : S64.Idx → EReal) (n : Nat)
    (h0 : ∀ (y : S10000x64.Idx) (z : S100000x64.Idx), (z 0).val = n * 10000 + (y 0).val → (z 1).val = (y 1).val → x0 y = A z)
    (h1 : ∀ q : Fin 64, x1 (ix2 (0 : Fin 1) q) = b (ix1 q))
    (j : S10000x64.Idx) (i : S100000x64.Idx) (hi0 : (i 0).val = n * 10000 + (j 0).val) (hi1 : (i 1).val = (j 1).val) :
    k3_pay1 (F := Ideal) x0 x1 j = Cert.GCN.biasRelu (F := Ideal) A b i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext hi1
  subst hq
  refine (pay3_apply x0 x1 p q').trans ?_
  refine Eq.trans ?_ (Cert.GCN.biasRelu_apply A b r q').symm
  rw [h0 (ix2 p q') (ix2 r q') hi0 rfl, h1]

/-- What point `t` writes back is block `t` of the activations of the whole aggregated array. -/
theorem flushed3 (c : Dev nD) (b : S64.Idx → EReal)
    (hb : ∀ q : Fin 64, (V c main_v60 : S1x64.Idx → EReal) (ix2 (0 : Fin 1) q) = b (ix1 q)) (t : Fin cfg3.N) :
    (dat3 V c).flushed 2 t = ((cfg3.win 2).blk t).view.read (Elt Ideal) (Cert.GCN.biasRelu (F := Ideal) (V c main_v59) b) := by
  show (cfg3.win 2).cut (grid3.coords t) ((dat3 V c).after 2 t) = _
  rw [after3_2]
  unfold out3_2
  rw [View.canon_unit_zero zero_offsets3]
  simp only [View.ld_unit_zero (S := S10000x64) zero_offsets3, View.ld_unit_zero (S := S1x64) zero_offsets3]
  obtain ⟨e0, e1, e2, e3, e4, e5⟩ := index_maps3 t
  funext j
  show k3_pay1 (F := Ideal) (iblk3 V c 0 t) (iblk3 V c 1 t) j
    = Cert.GCN.biasRelu (F := Ideal) (V c main_v59) b (((cfg3.win 2).blk t).view.emb j)
  refine biasRelu_block3 (iblk3 V c 0 t) (iblk3 V c 1 t) (V c main_v59) b t.val ?_ ?_ j _ ?_ ?_
  · intro y z hz0 hz1
    show V c main_v59 (((cfg3.win 0).blk t).view.emb y) = V c main_v59 z
    refine congrArg _ (funext fun a => Fin.ext ?_)
    match a with
    | ⟨0, _⟩ => show win3_0.index t (0 : Fin 2) * 10000 + 1 * (y 0).val = (z 0).val; rw [e0, hz0]; omega
    | ⟨1, _⟩ => show win3_0.index t (1 : Fin 2) * 64 + 1 * (y 1).val = (z 1).val; rw [e1, hz1]; omega
  · intro q
    refine Eq.trans ?_ (hb q)
    show V c main_v60 (((cfg3.win 1).blk t).view.emb (ix2 (0 : Fin 1) q)) = V c main_v60 (ix2 (0 : Fin 1) q)
    refine congrArg _ (funext fun a => Fin.ext ?_)
    match a with
    | ⟨0, _⟩ => show win3_1.index t (0 : Fin 2) * 1 + 1 * 0 = 0; rw [e2]
    | ⟨1, _⟩ => show win3_1.index t (1 : Fin 2) * 64 + 1 * q.val = q.val; rw [e3]; omega
  · show win3_2.index t (0 : Fin 2) * 10000 + 1 * (j 0).val = t.val * 10000 + (j 0).val; rw [e4]; omega
  · show win3_2.index t (1 : Fin 2) * 64 + 1 * (j 1).val = (j 1).val; rw [e5]; omega

/-- An index of the result array is in point `t`'s block iff each coordinate is in the block's range on its axis. -/
theorem mem_block3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Row `r` of the result is in the block of point `r / 10000`. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have hlt : (i 0).val / 10000 < cfg3.N := by rw [hN]; omega
  obtain ⟨-, -, -, -, e4, e5⟩ := index_maps3 ⟨(i 0).val / 10000, hlt⟩
  refine ⟨⟨(i 0).val / 10000, hlt⟩, flush3_2 _, ?_⟩
  rw [mem_block3]
  intro a
  match a with
  | ⟨0, _⟩ =>
    show win3_2.index ⟨(i 0).val / 10000, hlt⟩ (0 : Fin 2) * 10000 ≤ (i 0).val ∧ (i 0).val < win3_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hlt⟩ (1 : Fin 2) * 64 ≤ (i 1).val ∧ (i 1).val < win3_2.index ⟨(i 0).val / 10000, hlt⟩ (1 : Fin 2) * 64 + 64
    rw [e5]; omega

/-- The result array after the launch: the bias added to the aggregated array as the launch finds it, then the positive
    part, for the bias vector whose entries the one-row array holds. -/
theorem value3 (c : Dev nD) (b : S64.Idx → EReal)
    (hb : ∀ q : Fin 64, (V c main_v60 : S1x64.Idx → EReal) (ix2 (0 : Fin 1) q) = b (ix1 q)) :
    (dat3 V c).arrAt 2 cfg3.N = Cert.GCN.biasRelu (F := Ideal) (V c main_v59) b :=
  (dat3 V c).arrAt_eq_of_cover 2 _ (fun t _ => flushed3 V c b hb t) cover3

end Cert.KernelIdeal.Net

end
-- ==== Proof.Fold3.lean ====
/-
  From the third launch's exit to the fourth's: the second hidden layer.

  The host aggregates the second projection over the same lists with the same weights and lays the second bias vector
  out as one row; the fourth launch adds the row and takes the positive part: `hid2`.
-/
import proofs.«124380_j32280974197287_1_alg».proof.Proof.Fold2
import proofs.«124380_j32280974197287_1_alg».proof.Proof.Region3

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The second hidden layer as a function of the arguments as launched. -/
abbrev hid2 : Cert.GCN.Rows Ideal :=
  Cert.GCN.biasRelu (F := Ideal) (Cert.GCN.aggOf (F := Ideal) (Cert.GCN.srcI (F := Ideal) (arg m c main_arg1)) (Cert.GCN.dstI (F := Ideal) (arg m c main_arg1)) (Cert.GCN.norm (F := Ideal) (arg m c main_arg1)) (Cert.GCN.proj2 (F := Ideal) (hid1 m c) (arg m c main_arg5))) (arg m c main_arg6)

/-- The aggregated second projection when the fourth launch begins. -/
theorem W8_agg : W8 m ρ c (Proc.devRef .tc main_v59) = Cert.GCN.aggOf (F := Ideal) (Cert.GCN.srcI (F := Ideal) (arg m c main_arg1)) (Cert.GCN.dstI (F := Ideal) (arg m c main_arg1)) (Cert.GCN.norm (F := Ideal) (arg m c main_arg1)) (Cert.GCN.proj2 (F := Ideal) (hid1 m c) (arg m c main_arg5)) :=
  (host3_agg (W7 m ρ c)).trans (by rw [W7_src m ρ c, W7_dst m ρ c, W7_norm m ρ c, W7_proj m ρ c])

/-- The second bias laid out as one row. -/
theorem W8_bias_row (q : Fin 64) :
    (W8 m ρ c (Proc.devRef .tc main_v60) : S1x64.Idx → EReal) (ix2 (0 : Fin 1) q) = (arg m c main_arg6 : S64.Idx → EReal) (ix1 q) :=
  (congrFun (host3_row (W7 m ρ c)) (ix2 (0 : Fin 1) q)).trans
    ((row_of_vec _ _ q).trans (congrFun (W7_arg m ρ c main_arg6 (by decide)) (ix1 q)))

/-- The fourth launch's result: the second hidden layer. -/
theorem W9_hid : W9 m ρ c (Proc.devRef .tc main_v61) = hid2 m c :=
  (W9_arr m ρ c 2).trans ((value3 (V8 m ρ) c (arg m c main_arg6) (W8_bias_row m ρ c)).trans
    (congrArg (fun a => Cert.GCN.biasRelu (F := Ideal) a (arg m c main_arg6)) (W8_agg m ρ c)))

theorem W9_arg (b : Ref sig .tc) (hb : Kept3 b) : W9 m ρ c (Proc.devRef .tc b) = arg m c b := by
  rcases hb with rfl | rfl | rfl <;>
  exact (W9_of_ne m ρ c _ (by decide)).trans ((host3_keep (W7 m ρ c) _ (by decide)).trans (W7_arg m ρ c _ (by decide)))

end Cert.KernelIdeal.Net

end
-- ==== Proof.Region4.lean ====
/-
  The last launch leaves the classifier's output in the result array.

  The launch has one point, whose blocks are the whole arrays: the body multiplies the pooled rows by the last weight
  matrix, adds the one bias row to every row, and writes the whole result back. So the one point writes `head` of the
  arrays as the launch finds them, and its block is the whole result array. The bias arrives as a one-row array;
  `head` takes the bias vector, so the row is named by its entries.
-/
import proofs.«124380_j32280974197287_1_alg».proof.Proof.Gen.KernelIdeal.Frame
import proofs.«124380_j32280974197287_1_alg».proof.Proof.Payloads
import proofs.«124380_j32280974197287_1_alg».proof.Proof.SpecAt
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets4 : (![0, 0] : Fin 2 → Nat) = fun _ => 0 := funext fun a => by fin_cases a <;> rfl

/-- The printed index maps at the one point: every window's block is the first, on both axes. -/
theorem index_maps4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The body's value at an entry is the classifier's, for arrays that agree entry by entry. -/
theorem head_block (x0 : Vec Ideal S128x64 .f32) (x1 : Vec Ideal S64x4 .f32) (x2 : Vec Ideal S1x4 .f32)
    (G : S128x64.Idx → EReal) (W : S64x4.Idx → EReal) (b : S4.Idx → EReal)
    (h0 : ∀ y : S128x64.Idx, x0 y = G y) (h1 : ∀ y : S64x4.Idx, x1 y = W y)
    (h2 : ∀ q : Fin 4, x2 (ix2 (0 : Fin 1) q) = b (ix1 q))
    (j : S128x4.Idx) (i : S128x4.Idx) (hi0 : (i 0).val = (j 0).val) (hi1 : (i 1).val = (j 1).val) :
    k4_pay1 (F := Ideal) x0 x1 x2 j = Cert.GCN.head (F := Ideal) G W b i := by
  obtain ⟨p, q, rfl⟩ : ∃ (p : Fin 128) (q : Fin 4), j = ix2 p q := ⟨j 0, j 1, eq_ix2 j⟩
  obtain ⟨r, q', rfl⟩ : ∃ (r : Fin 128) (q' : Fin 4), i = ix2 r q' := ⟨i 0, i 1, eq_ix2 i⟩
  have hq : q' = q := Fin.ext hi1
  have hr : r = p := Fin.ext hi0
  subst hq hr
  refine (pay4_apply x0 x1 x2 r q').trans ?_
  refine Eq.trans ?_ (Cert.GCN.head_apply G W b r q').symm
  rw [h2 q']
  refine congrArg (· + b (ix1 q')) (Finset.sum_congr rfl fun k _ => ?_)
  rw [h0, h1]

/-- What the one point writes back is the classifier's output, read through the whole-array block. -/
theorem flushed4 (c : Dev nD) (b : S4.Idx → EReal)
    (hb : ∀ q : Fin 4, (V c main_v65 : S1x4.Idx → EReal) (ix2 (0 : Fin 1) q) = b (ix1 q)) (t : Fin cfg4.N) :
    (dat4 V c).flushed 3 t = ((cfg4.win 3).blk t).view.read (Elt Ideal) (Cert.GCN.head (F := Ideal) (V c main_v64) (V c main_arg7) b) := by
  show (cfg4.win 3).cut (grid4.coords t) ((dat4 V c).after 3 t) = _
  rw [after4_3]
  unfold out4_3
  rw [View.canon_unit_zero zero_offsets4]
  simp only [View.ld_unit_zero (S := S128x64) zero_offsets4, View.ld_unit_zero (S := S64x4) zero_offsets4, View.ld_unit_zero (S := S1x4) zero_offsets4]
  obtain ⟨e0, e1, e2, e3, e4, e5, e6, e7⟩ := index_maps4 t
  funext j
  show k4_pay1 (F := Ideal) (iblk4 V c 0 t) (iblk4 V c 1 t) (iblk4 V c 2 t) j
    = Cert.GCN.head (F := Ideal) (V c main_v64) (V c main_arg7) b (((cfg4.win 3).blk t).view.emb j)
  refine head_block (iblk4 V c 0 t) (iblk4 V c 1 t) (iblk4 V c 2 t) (V c main_v64) (V c main_arg7) b ?_ ?_ ?_ j _ ?_ ?_
  · intro y
    show V c main_v64 (((cfg4.win 0).blk t).view.emb y) = V c main_v64 y
    refine congrArg _ (funext fun a => Fin.ext ?_)
    match a with
    | ⟨0, _⟩ => show win4_0.index t (0 : Fin 2) * 128 + 1 * (y 0).val = (y 0).val; rw [e0]; omega
    | ⟨1, _⟩ => show win4_0.index t (1 : Fin 2) * 64 + 1 * (y 1).val = (y 1).val; rw [e1]; omega
  · intro y
    show V c main_arg7 (((cfg4.win 1).blk t).view.emb y) = V c main_arg7 y
    refine congrArg _ (funext fun a => Fin.ext ?_)
    match a with
    | ⟨0, _⟩ => show win4_1.index t (0 : Fin 2) * 64 + 1 * (y 0).val = (y 0).val; rw [e2]; omega
    | ⟨1, _⟩ => show win4_1.index t (1 : Fin 2) * 4 + 1 * (y 1).val = (y 1).val; rw [e3]; omega
  · intro q
    refine Eq.trans ?_ (hb q)
    show V c main_v65 (((cfg4.win 2).blk t).view.emb (ix2 (0 : Fin 1) q)) = V c main_v65 (ix2 (0 : Fin 1) q)
    refine congrArg _ (funext fun a => Fin.ext ?_)
    match a with
    | ⟨0, _⟩ => show win4_2.index t (0 : Fin 2) * 1 + 1 * 0 = 0; rw [e4]
    | ⟨1, _⟩ => show win4_2.index t (1 : Fin 2) * 4 + 1 * q.val = q.val; rw [e5]; omega
  · show win4_3.index t (0 : Fin 2) * 128 + 1 * (j 0).val = (j 0).val; rw [e6]; omega
  · show win4_3.index t (1 : Fin 2) * 4 + 1 * (j 1).val = (j 1).val; rw [e7]; omega

/-- An index of the result array is in the point's block iff each coordinate is in the block's range on its axis. -/
theorem mem_block4 (t : Fin cfg4.N) (i : S128x4.Idx) :
    i ∈ ((cfg4.win 3).blk t).view.set ↔ ∀ a : Fin 2, win4_3.index t a * S128x4.size a ≤ (i a).val ∧ (i a).val < win4_3.index t a * S128x4.size a + S128x4.size a := by
  show i ∈ ((View.whole main_v66).slice (win4_3.rect t)).set ↔ _
  rw [View.set_slice_whole, Rect.mem_set_unit]
  exact Iff.rfl

/-- The one block is the whole result array. -/
theorem cover4 (i : S128x4.Idx) : ∃ t : Fin cfg4.N, (cfg4.win 3).flush t = true ∧ i ∈ ((cfg4.win 3).blk t).view.set := by
  have hi0 : (i 0).val < 128 := (i 0).isLt
  have hi1 : (i 1).val < 4 := (i 1).isLt
  obtain ⟨-, -, -, -, -, -, e6, e7⟩ := index_maps4 t4_0
  refine ⟨t4_0, flush4_3 _, ?_⟩
  rw [mem_block4]
  intro a
  match a with
  | ⟨0, _⟩ =>
    show win4_3.index t4_0 (0 : Fin 2) * 128 ≤ (i 0).val ∧ (i 0).val < win4_3.index t4_0 (0 : Fin 2) * 128 + 128
    rw [e6]; omega
  | ⟨1, _⟩ =>
    show win4_3.index t4_0 (1 : Fin 2) * 4 ≤ (i 1).val ∧ (i 1).val < win4_3.index t4_0 (1 : Fin 2) * 4 + 4
    rw [e7]; omega

/-- The result array after the launch: the classifier of the pooled rows and the last weight matrix as the launch finds
    them, for the bias vector whose entries the one-row array holds. -/
theorem value4 (c : Dev nD) (b : S4.Idx → EReal)
    (hb : ∀ q : Fin 4, (V c main_v65 : S1x4.Idx → EReal) (ix2 (0 : Fin 1) q) = b (ix1 q)) :
    (dat4 V c).arrAt 3 cfg4.N = Cert.GCN.head (F := Ideal) (V c main_v64) (V c main_arg7) b :=
  (dat4 V c).arrAt_eq_of_cover 3 _ (fun t _ => flushed4 V c b hb t) cover4

end Cert.KernelIdeal.Net

end
-- ==== Proof.NetEq.lean ====
/-
  The network written out over its stages, with the aggregation's lists and weights named.
-/
import proofs.«124380_j32280974197287_1_alg».proof.Proof.Spec

noncomputable section

namespace Cert.GCN

open Idealize.ShloMosaic Cert.ReferenceIdeal

variable {F : FTy → Type} [FloatOps F]

/-- `net` is the classifier of the pooled second hidden layer, each hidden layer the bias stage of the aggregation of a
    projection over the edge list's lists and weights. -/
theorem net_eq (x : (⟨S100000x16, .f32⟩ : BufTy).Contents (Elt F)) (e : Edges F) (g : (⟨S100000, .i32⟩ : BufTy).Contents (Elt F))
    (w1 : (⟨S16x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (wl : (⟨S64x4, .f32⟩ : BufTy).Contents (Elt F)) (bl : (⟨S4, .f32⟩ : BufTy).Contents (Elt F)) :
    net x e g w1 b1 w2 b2 wl bl
      = head (pool g (biasRelu (aggOf (srcI e) (dstI e) (norm e) (proj2 (biasRelu (aggOf (srcI e) (dstI e) (norm e) (proj1 x w1)) b1) w2)) b2)) wl bl := by
  unfold net agg
  rfl

end Cert.GCN

end
-- ==== Proof.Fold4.lean ====
/-
  The last stretch: the per-graph sum and the classifier.

  The host sums the second hidden layer's rows per graph and lays the last bias vector out as one row; the last launch
  multiplies the pooled rows by the last weight matrix and adds the row. So the result buffer ends at the whole network
  `net` of the nine arguments as launched.
-/
import proofs.«124380_j32280974197287_1_alg».proof.Proof.Fold3
import proofs.«124380_j32280974197287_1_alg».proof.Proof.Region4
import proofs.«124380_j32280974197287_1_alg».proof.Proof.NetEq

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The pooled rows when the last launch begins. -/
theorem W10_pool : W10 m ρ c (Proc.devRef .tc main_v64) = Cert.GCN.pool (F := Ideal) (arg m c main_arg2) (hid2 m c) :=
  (host4_pool (W9 m ρ c)).trans (by rw [W9_arg m ρ c main_arg2 (by decide), W9_hid m ρ c])

/-- The last bias laid out as one row. -/
theorem W10_bias_row (q : Fin 4) :
    (W10 m ρ c (Proc.devRef .tc main_v65) : S1x4.Idx → EReal) (ix2 (0 : Fin 1) q) = (arg m c main_arg8 : S4.Idx → EReal) (ix1 q) :=
  (congrFun (host4_row (W9 m ρ c)) (ix2 (0 : Fin 1) q)).trans
    ((row_of_vec _ _ q).trans (congrFun (W9_arg m ρ c main_arg8 (by decide)) (ix1 q)))

/-- The last weight matrix when the last launch begins. -/
theorem W10_weights : W10 m ρ c (Proc.devRef .tc main_arg7) = arg m c main_arg7 :=
  (host4_keep (W9 m ρ c)).trans (W9_arg m ρ c main_arg7 (by decide))

/-- THE KERNEL'S RESULT: the result buffer after the last launch is the network of the arguments as launched. -/
theorem W11_net : W11 m ρ c (Proc.devRef .tc main_v66)
    = Cert.GCN.net (F := Ideal) (arg m c main_arg0) (arg m c main_arg1) (arg m c main_arg2) (arg m c main_arg3) (arg m c main_arg4)
        (arg m c main_arg5) (arg m c main_arg6) (arg m c main_arg7) (arg m c main_arg8) :=
  (W11_arr m ρ c 3).trans ((value4 (V10 m ρ) c (arg m c main_arg8) (W10_bias_row m ρ c)).trans
    ((congrArg₂ (fun p w => Cert.GCN.head (F := Ideal) p w (arg m c main_arg8)) (W10_pool m ρ c) (W10_weights m ρ c)).trans
      (Cert.GCN.net_eq (F := Ideal) (arg m c main_arg0) (arg m c main_arg1) (arg m c main_arg2) (arg m c main_arg3) (arg m c main_arg4)
        (arg m c main_arg5) (arg m c main_arg6) (arg m c main_arg7) (arg m c main_arg8)).symm))

end Cert.KernelIdeal.Net

end
-- ==== Proof.RefIsNet.lean ====
/-
  The reference program computes the network.

  Its run ends with the result buffer at the composition of its host operations over the argument arrays; that
  composition is, operation for operation, the network function: two layers (projection, weighted aggregation over
  the extended edge list, bias and positive part), the per-graph sum and the last affine map. The reference works
  the edge weights out once per layer, from the same edge list both times, so both are the one `norm`.
-/
import proofs.«124380_j32280974197287_1_alg».proof.Proof.Spec
import proofs.«124380_j32280974197287_1_alg».proof.Proof.RefRun

set_option maxRecDepth 16384

noncomputable section

namespace Cert.GCN

open Idealize.ShloMosaic Idealize.ShloMosaic.TcCoe Idealize.SL.Sem Cert.ReferenceIdeal Cert.ReferenceIdeal.Gen

variable {F : FTy → Type} [FloatOps F]

/-- The reference's result term is the network of the launch contents of its arguments. -/
theorem ref_is_net (m : (ℓ : Loc nD τ sig) → Buf (Elt F) ℓ) (c : Dev nD) :
    Cert.ReferenceIdeal.ValueP.res_main_v95 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.ValueP.res_main_v95 net head pool biasRelu agg aggOf proj2 proj1 norm dinv deg wrap srcI dstI
  rfl

end Cert.GCN

end
-- ==== Proof.lean ====
/-
  A two-layer graph convolution with a per-graph sum and a linear classifier: five kernel launches among host gathers
  and scatter-adds, against the same network written with host matrix products.

  At the ideal instance the two programs are the same function `Cert.GCN.net` of the nine arguments. Each projection
  launch multiplies blocks of node rows by a whole weight matrix, and a matrix product into the zero accumulator has
  the entries of the host's product — the same sums, term for term, so no law of the extended reals beyond that is
  used and finiteness of the inputs is never needed. Each bias launch adds a bias row and takes the positive part, as the
  reference's addition and maximum do. Everything between — the source and destination lists with their self-loops,
  the degrees, the edge weights, the gathers and the scatter-adds — is the same host operations applied to equal
  values, and is carried as it stands (the reference works the weights out once per layer; both are the one `norm`).

  The kernel's run is the launch theorem for the chain of segments read at the result buffer (`Net.run`), with the
  buffer contents followed through the program (`Net.W11_net`); the reference's run ends at its operations' composed
  term, which is `net` (`ref_is_net`). The three frames are the runs with the result dropped; the idealization rewrote
  nothing, so `preserves` asks nothing.
-/
import proofs.«124380_j32280974197287_1_alg».proof.Defs
import proofs.«124380_j32280974197287_1_alg».proof.Proof.Gen.Kernel
import proofs.«124380_j32280974197287_1_alg».proof.Proof.Gen.Kernel.Skeleton
import proofs.«124380_j32280974197287_1_alg».proof.Proof.Gen.Kernel.Launch
import proofs.«124380_j32280974197287_1_alg».proof.Proof.Gen.Kernel.Points
import proofs.«124380_j32280974197287_1_alg».proof.Proof.Gen.Kernel.Frame
import proofs.«124380_j32280974197287_1_alg».proof.Proof.Gen.KernelIdeal
import proofs.«124380_j32280974197287_1_alg».proof.Proof.Gen.KernelIdeal.Skeleton
import proofs.«124380_j32280974197287_1_alg».proof.Proof.Gen.KernelIdeal.Launch
import proofs.«124380_j32280974197287_1_alg».proof.Proof.Gen.KernelIdeal.Points
import proofs.«124380_j32280974197287_1_alg».proof.Proof.Gen.KernelIdeal.Frame
import proofs.«124380_j32280974197287_1_alg».proof.Proof.Gen.ReferenceIdeal
import proofs.«124380_j32280974197287_1_alg».proof.Proof.Gen.Pre_finite_inputs
import proofs.«124380_j32280974197287_1_alg».proof.Proof.KRun
import proofs.«124380_j32280974197287_1_alg».proof.Proof.Fold4
import proofs.«124380_j32280974197287_1_alg».proof.Proof.RefRun
import proofs.«124380_j32280974197287_1_alg».proof.Proof.RefIsNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result buffer at the network of the arguments as launched, and the launch memories agree
    on the arguments. -/
theorem algebraic : Cert.algebraic_KernelIdeal_ReferenceIdeal := by
  intro m ρ m' ρ' _ hagree
  refine ⟨fun c => Cert.GCN.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Net.W11_net m ρ c), (h c).2⟩) (Cert.KernelIdeal.Net.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8⟩ := hagree c
    rw [Cert.GCN.ref_is_net m' c, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
